-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1x512x10 : Shape := ⟨3, ![1, 512, 10]⟩
abbrev S1x512x1 : Shape := ⟨3, ![1, 512, 1]⟩
abbrev S11x64 : Shape := ⟨2, ![11, 64]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512x10 : S_.BroadcastsInDim S1x512x10 (![] : Fin 0 → Fin S1x512x10.rank)
  reducesTo_S1x512x10_S_d0_1_2 : S1x512x10.ReducesTo [0, 1, 2] S_
  bcast_S_S1x512x1 : S_.BroadcastsInDim S1x512x1 (![] : Fin 0 → Fin S1x512x1.rank)
  reducesTo_S1x512x1_S_d0_1_2 : S1x512x1.ReducesTo [0, 1, 2] S_
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S11x64 .f32) (main_arg5 : FVec F S64 .f32) (main_v13 : IVec S_ 1) (main_v16 : IVec S1x512x1 1) : IVec S_ 1 :=
  let main_c_5 : IVec S_ 1 := constantI S_ 1 1#1
  let main_v17 : IVec S_ 1 := (fun x v => Host.reduce IntOp.andi x v reducesTo_S1x512x1_S_d0_1_2 h_S_) main_v16 main_c_5
  let main_v18 : IVec S_ 1 := andi main_v13 main_v17
  let main_v19 : FVec F S11x64 .f32 := Host.absf main_arg4
  let main_cst_6 : FVec F S_ .f32 := constant S_ .f32 0x7F800000#32
  let main_v20 : FVec F S11x64 .f32 := broadcastInDim S11x64 ![] bcast_S_S11x64 main_cst_6
  let main_v21 : IVec S11x64 1 := cmpf .olt main_v19 main_v20
  let main_c_7 : IVec S_ 1 := constantI S_ 1 1#1
  let main_v22 : IVec S_ 1 := (fun x v => Host.reduce IntOp.andi x v reducesTo_S11x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S1x512x10 .f32) (main_arg3 : FVec F S1x512x1 .f32) (main_arg4 : FVec F S11x64 .f32) (main_arg5 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1x512x10 .f32 := Host.absf main_arg2
  let main_cst_2 : FVec F S_ .f32 := constant S_ .f32 0x7F800000#32
  let main_v10 : FVec F S1x512x10 .f32 := broadcastInDim S1x512x10 ![] bcast_S_S1x512x10 main_cst_2
  let main_v11 : IVec S1x512x10 1 := cmpf .olt main_v9 main_v10
  let main_c_3 : IVec S_ 1 := constantI S_ 1 1#1
  let main_v12 : IVec S_ 1 := (fun x v => Host.reduce IntOp.andi x v reducesTo_S1x512x10_S_d0_1_2 h_S_) main_v11 main_c_3
  let main_v13 : IVec S_ 1 := andi main_v8 main_v12
  let main_v14 : FVec F S1x512x1 .f32 := Host.absf main_arg3
  let main_cst_4 : FVec F S_ .f32 := constant S_ .f32 0x7F800000#32
  let main_v15 : FVec F S1x512x1 .f32 := broadcastInDim S1x512x1 ![] bcast_S_S1x512x1 main_cst_4
  let main_v16 : IVec S1x512x1 1 := cmpf .olt main_v14 main_v15
  fn_part1 (F := F) main_arg4 main_arg5 main_v13 main_v16
-- ==== Kernel.lean ====
abbrev S4096x512 : Shape := ⟨2, ![4096, 512]⟩
abbrev S1x512x10 : Shape := ⟨3, ![1, 512, 10]⟩
abbrev S1x512x1 : Shape := ⟨3, ![1, 512, 1]⟩
abbrev S11x64 : Shape := ⟨2, ![11, 64]⟩
abbrev S64 : Shape := ⟨1, ![64]⟩
abbrev S512x10 : Shape := ⟨2, ![512, 10]⟩
abbrev S10x64 : Shape := ⟨2, ![10, 64]⟩
abbrev S512x64 : Shape := ⟨2, ![512, 64]⟩
abbrev S512x1 : Shape := ⟨2, ![512, 1]⟩
abbrev S1x64 : Shape := ⟨2, ![1, 64]⟩
abbrev S_ : Shape := ⟨0, ![]⟩
abbrev S512x128 : Shape := ⟨2, ![512, 128]⟩
abbrev S4096x128 : Shape := ⟨2, ![4096, 128]⟩
abbrev S2048x512 : Shape := ⟨2, ![2048, 512]⟩
abbrev S2048x128 : Shape := ⟨2, ![2048, 128]⟩
abbrev S4096x64 : Shape := ⟨2, ![4096, 64]⟩

abbrev nBuf : Space → Nat
  | .hbm => 25
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512x10, .f32⟩
  | .hbm, ⟨3, _⟩ => ⟨S1x512x1, .f32⟩
  | .hbm, ⟨4, _⟩ => ⟨S11x64, .f32⟩
  | .hbm, ⟨5, _⟩ => ⟨S64, .f32⟩
  | .hbm, ⟨6, _⟩ => ⟨S512x10, .f32⟩
  | .hbm, ⟨7, _⟩ => ⟨S10x64, .f32⟩
  | .hbm, ⟨8, _⟩ => ⟨S512x64, .f32⟩
  | .hbm, ⟨9, _⟩ => ⟨S512x1, .f32⟩
  | .hbm, ⟨10, _⟩ => ⟨S1x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S1x64, .f32⟩
  | .hbm, ⟨15, _⟩ => ⟨S512x64, .f32⟩
  | .hbm, ⟨16, _⟩ => ⟨S512x64, .f32⟩
  | .hbm, ⟨17, _⟩ => ⟨S_, .i32⟩
  | .hbm, ⟨18, _⟩ => ⟨S_, .f32⟩
  | .hbm, ⟨19, _⟩ => ⟨S512x128, .f32⟩
  | .hbm, ⟨20, _⟩ => ⟨S_, .i32⟩
  | .hbm, ⟨21, _⟩ => ⟨S_, .f32⟩
  | .hbm, ⟨22, _⟩ => ⟨S512x128, .f32⟩
  | .hbm, ⟨23, _⟩ => ⟨S4096x128, .f32⟩
  | .hbm, ⟨24, _⟩ => ⟨S4096x64, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x128, .f32⟩
  | .local _ .vmem, ⟨5, _⟩ => ⟨S512x128, .f32⟩
  | .local _ .vmem, ⟨6, _⟩ => ⟨S2048x128, .f32⟩
  | .local _ .vmem, ⟨7, _⟩ => ⟨S2048x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x512x10_S512x10 : S1x512x10.ShapeCasts S512x10
  slices_S11x64_S10x64_0_0 : S11x64.Slices ![0, 0] S10x64
  shapeCasts_S1x512x1_S512x1 : S1x512x1.ShapeCasts S512x1
  slices_S11x64_S1x64_10_0 : S11x64.Slices ![10, 0] S1x64
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S64_S1x64_1 : S64.BroadcastsInDim S1x64 (![1] : Fin 1 → Fin S1x64.rank)
  pads_S512x64_S512x128_000_0640 : S512x64.Pads (![0, 0] : Fin 2 → Nat) ![0, 64] ![0, 0] S512x128
  h_S_ : 0 < S_.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  slices_S4096x128_S4096x64_0_0 : S4096x128.Slices ![0, 0] S4096x64
  dot_S512x10_S10x64_S512x64_1_0_0_1_n_n_wf : DotDims.WF S512x10 S10x64 S512x64 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x512.size a
  hwx0_1 : ∀ i : grid0.Coords, EltTy.bits .f32 = 32 ∨ (Rect.block (s := S4096x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S4096x128.size a
  hwx0_4 : ∀ i : grid0.Coords, EltTy.bits .f32 = 32 ∨ (Rect.block (s := S4096x128) S2048x128.size (cc0_transform_4 i) (hinb0_4 i)).WholeWords (EltTy.packing .f32)

variable [Facts₀]

def dot_S512x10_S10x64_S512x64_1_0_0_1_n_n : DotDims S512x10 S10x64 S512x64 where
  lhsContracting := [1]
  rhsContracting := [0]
  lhsNonContracting := [0]
  rhsNonContracting := [1]
  lhsBatch := []
  rhsBatch := []
  wf := dot_S512x10_S10x64_S512x64_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S1x512x10 : Shape := ⟨3, ![1, 512, 10]⟩
abbrev S1x512x1 : Shape := ⟨3, ![1, 512, 1]⟩
abbrev S11x64 : Shape := ⟨2, ![11, 64]⟩
abbrev S64 : Shape := ⟨1, ![64]⟩
abbrev S4096x512x1 : Shape := ⟨3, ![4096, 512, 1]⟩
abbrev S512x10 : Shape := ⟨2, ![512, 10]⟩
abbrev S4096x512x10 : Shape := ⟨3, ![4096, 512, 10]⟩
abbrev S512x1 : Shape := ⟨2, ![512, 1]⟩
abbrev S4096x512x11 : Shape := ⟨3, ![4096, 512, 11]⟩
abbrev S4096x512x64 : Shape := ⟨3, ![4096, 512, 64]⟩
abbrev S1x1x64 : Shape := ⟨3, ![1, 1, 64]⟩
abbrev S_ : Shape := ⟨0, ![]⟩
abbrev S4096x64 : Shape := ⟨2, ![4096, 64]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512x10, .f32⟩
  | .hbm, ⟨3, _⟩ => ⟨S1x512x1, .f32⟩
  | .hbm, ⟨4, _⟩ => ⟨S11x64, .f32⟩
  | .hbm, ⟨5, _⟩ => ⟨S64, .f32⟩
  | .hbm, ⟨6, _⟩ => ⟨S4096x512x1, .f32⟩
  | .hbm, ⟨7, _⟩ => ⟨S512x10, .f32⟩
  | .hbm, ⟨8, _⟩ => ⟨S1x512x10, .f32⟩
  | .hbm, ⟨9, _⟩ => ⟨S4096x512x10, .f32⟩
  | .hbm, ⟨10, _⟩ => ⟨S4096x512x10, .f32⟩
  | .hbm, ⟨11, _⟩ => ⟨S4096x512x10, .f32⟩
  | .hbm, ⟨12, _⟩ => ⟨S512x1, .f32⟩
  | .hbm, ⟨13, _⟩ => ⟨S4096x512x1, .f32⟩
  | .hbm, ⟨14, _⟩ => ⟨S4096x512x11, .f32⟩
  | .hbm, ⟨15, _⟩ => ⟨S4096x512x64, .f32⟩
  | .hbm, ⟨16, _⟩ => ⟨S1x1x64, .f32⟩
  | .hbm, ⟨17, _⟩ => ⟨S4096x512x64, .f32⟩
  | .hbm, ⟨18, _⟩ => ⟨S4096x512x64, .f32⟩
  | .hbm, ⟨19, _⟩ => ⟨S4096x512x1, .f32⟩
  | .hbm, ⟨20, _⟩ => ⟨S4096x512x64, .f32⟩
  | .hbm, ⟨21, _⟩ => ⟨S4096x512x64, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S4096x512_S4096x512x1_0_1 : S4096x512.BroadcastsInDim S4096x512x1 (![0, 1] : Fin 2 → Fin S4096x512x1.rank)
  shapeCasts_S1x512x10_S512x10 : S1x512x10.ShapeCasts S512x10
  bcast_S512x10_S1x512x10_1_2 : S512x10.BroadcastsInDim S1x512x10 (![1, 2] : Fin 2 → Fin S1x512x10.rank)
  bcast_S4096x512x1_S4096x512x10_0_1_2 : S4096x512x1.BroadcastsInDim S4096x512x10 (![0, 1, 2] : Fin 3 → Fin S4096x512x10.rank)
  bcast_S1x512x10_S4096x512x10_0_1_2 : S1x512x10.BroadcastsInDim S4096x512x10 (![0, 1, 2] : Fin 3 → Fin S4096x512x10.rank)
  shapeCasts_S1x512x1_S512x1 : S1x512x1.ShapeCasts S512x1
  bcast_S512x1_S4096x512x1_1_2 : S512x1.BroadcastsInDim S4096x512x1 (![1, 2] : Fin 2 → Fin S4096x512x1.rank)
  concatenates_S4096x512x10_S4096x512x1_S4096x512x11_d2 : Shape.Concatenates [S4096x512x10, S4096x512x1] S4096x512x11 2
  bcast_S64_S1x1x64_2 : S64.BroadcastsInDim S1x1x64 (![2] : Fin 1 → Fin S1x1x64.rank)
  bcast_S1x1x64_S4096x512x64_0_1_2 : S1x1x64.BroadcastsInDim S4096x512x64 (![0, 1, 2] : Fin 3 → Fin S4096x512x64.rank)
  bcast_S4096x512x1_S4096x512x64_0_1_2 : S4096x512x1.BroadcastsInDim S4096x512x64 (![0, 1, 2] : Fin 3 → Fin S4096x512x64.rank)
  reducesTo_S4096x512x64_S4096x64_d1 : S4096x512x64.ReducesTo [1] S4096x64
  h_S_ : 0 < S_.numel
  bcast_S_S4096x64 : S_.BroadcastsInDim S4096x64 (![] : Fin 0 → Fin S4096x64.rank)
  dot_S4096x512x11_S11x64_S4096x512x64_2_0_01_1_n_n_wf : DotDims.WF S4096x512x11 S11x64 S4096x512x64 [2] [0] [0, 1] [1] [] []

variable [Facts₀]

def dot_S4096x512x11_S11x64_S4096x512x64_2_0_01_1_n_n : DotDims S4096x512x11 S11x64 S4096x512x64 where
  lhsContracting := [2]
  rhsContracting := [0]
  lhsNonContracting := [0, 1]
  rhsNonContracting := [1]
  lhsBatch := []
  rhsBatch := []
  wf := dot_S4096x512x11_S11x64_S4096x512x64_2_0_01_1_n_n_wf

class Facts : Prop extends Facts₀ where

variable [Facts]
-- ==== Proof.Spec.lean ====
/-
  The masked pooling of an affine feature encoding, entry by entry, in its two arrangements.

  For a batch row `r` and an output channel `k` the result is
      max (∑ over the 512 features d of  mask[r,d] · ( ∑ over the 11 augmented entries f of aug[r,d,f] · W[f,k]  +  bw[k] ),  0)
  where the augmented row of (r, d) is the ten products x[r,d] · F[d,f] followed by the offset b[d].
  Because the augmented row is linear in x[r,d], the sum over d splits into two matrix products against
  tables that do not depend on the batch row:
      fw[d,k]   = ∑ over the ten features f of F[d,f] · W[f,k]
      bias[d,k] = b[d] · W[10,k] + bw[k]
      result    = max (∑ d, (x[r,d] · mask[r,d]) · fw[d,k]  +  ∑ d, mask[r,d] · bias[d,k],  0).
  The first form is `refAt`, the second `kerAt`; they agree wherever every input entry is a real number
  (the step uses distributivity, which fails at the infinities of the extended reals).
-/
import Idealize.ShloMosaic.PureOps.Ideal
import Idealize.ShloMosaic.Lib.ValueIdx

noncomputable section

namespace Cert.MaskedPool

open Idealize.ShloMosaic Idealize.ShloMosaic.ValueIdx

/-- Observations and mask: 4096 batch rows by 512 features. -/
abbrev Obs := FVec Ideal ⟨2, ![4096, 512]⟩ .f32
/-- Per-feature scale vectors: 512 features by 10 entries, under one leading unit axis. -/
abbrev Feat := FVec Ideal ⟨3, ![1, 512, 10]⟩ .f32
/-- Per-feature offsets, under a leading and a trailing unit axis. -/
abbrev Off := FVec Ideal ⟨3, ![1, 512, 1]⟩ .f32
/-- The encoding matrix: 11 augmented entries by 64 channels. -/
abbrev Wt := FVec Ideal ⟨2, ![11, 64]⟩ .f32
/-- The channel bias. -/
abbrev Bias := FVec Ideal ⟨1, ![64]⟩ .f32
/-- The result: 4096 batch rows by 64 channels. -/
abbrev Out := FVec Ideal ⟨2, ![4096, 64]⟩ .f32

/-- Entry `f` of the augmented row of batch row `r` and feature `d`: `x[r,d] · F[d,f]` for `f < 10`, the offset `b[d]` at `f = 10`. -/
def aug (x : Obs) (Fm : Feat) (b : Off) (r : Fin 4096) (d : Fin 512) (f : Fin 11) : EReal :=
  if h : f.val < 10 then x (ix2 r d) * Fm (ix3 (0 : Fin 1) d (⟨f.val, h⟩ : Fin 10)) else b (ix3 (0 : Fin 1) d (0 : Fin 1))

/-- The encode-then-pool arrangement: each feature's 11-entry row is encoded and biased, masked, and the features summed from zero. -/
def refAt (x msk : Obs) (Fm : Feat) (b : Off) (W : Wt) (bw : Bias) (r : Fin 4096) (k : Fin 64) : EReal :=
  max (0 + ∑ d : Fin 512, ((∑ f : Fin 11, aug x Fm b r d f * W (ix2 f k)) + bw (ix1 k)) * msk (ix2 r d)) 0

/-- The folded scale table `fw[d,k] = ∑ f < 10, F[d,f] · W[f,k]`. -/
def fw (Fm : Feat) (W : Wt) (d : Fin 512) (k : Fin 64) : EReal :=
  ∑ f : Fin 10, Fm (ix3 (0 : Fin 1) d f) * W (ix2 (⟨f.val, Nat.lt_trans f.isLt (by decide)⟩ : Fin 11) k)

/-- The folded offset table `bias[d,k] = b[d] · W[10,k] + bw[k]`. -/
def biasTab (b : Off) (W : Wt) (bw : Bias) (d : Fin 512) (k : Fin 64) : EReal :=
  b (ix3 (0 : Fin 1) d (0 : Fin 1)) * W (ix2 (10 : Fin 11) k) + bw (ix1 k)

/-- The pool-then-encode arrangement: two products of a batch row against the folded tables. -/
def kerAt (x msk : Obs) (Fm : Feat) (b : Off) (W : Wt) (bw : Bias) (r : Fin 4096) (k : Fin 64) : EReal :=
  max ((∑ d : Fin 512, (x (ix2 r d) * msk (ix2 r d)) * fw Fm W d k) + (∑ d : Fin 512, msk (ix2 r d) * biasTab b W bw d k)) 0

/-- The two arrangements as whole arrays. -/
def refOut (x msk : Obs) (Fm : Feat) (b : Off) (W : Wt) (bw : Bias) : Out := fun i => refAt x msk Fm b W bw (i 0) (i 1)
def kerOut (x msk : Obs) (Fm : Feat) (b : Off) (W : Wt) (bw : Bias) : Out := fun i => kerAt x msk Fm b W bw (i 0) (i 1)

/-- Every entry of an array is a real number. -/
def AllReal {s : Shape} (v : FVec Ideal s .f32) : Prop := ∀ i : s.Idx, ∃ a : ℝ, v i = (a : EReal)

end Cert.MaskedPool

end
-- ==== Proof.Algebra.lean ====
/-
  The two arrangements of the masked pooling agree wherever every input entry is a real number.

  With real entries the inner term of the encode-then-pool form is
      (∑ f < 11, aug[f] · W[f,k] + bw[k]) · m
  and the 11-term sum splits into the ten products (x · F[d,f]) · W[f,k] and the last term b[d] · W[10,k].
  So the summand is  (x · m) · fw[d,k] + m · (b[d] · W[10,k] + bw[k]),  and the sum over the features d splits
  into the two sums of the pool-then-encode form.  The rearrangement uses distributivity, which the extended
  reals lack at the infinities; so the identity is proved in ℝ and carried to the extended reals through the
  coercion, which commutes with products, sums and finite sums.
-/
import proofs.«106250_j45861660786920_2_alg».proof.Proof.Spec
import Mathlib.Data.EReal.Basic
import Mathlib.Algebra.BigOperators.Fin
import Mathlib.Tactic.Ring

noncomputable section

namespace Cert.MaskedPool

open Idealize.ShloMosaic Idealize.ShloMosaic.ValueIdx

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The augmented row over real data: the ten products, then the offset. -/
def augR (X : ℝ) (F : Fin 10 → ℝ) (B : ℝ) (f : Fin 11) : ℝ :=
  if h : f.val < 10 then X * F ⟨f.val, h⟩ else B

/-- One feature's contribution, in ℝ: the encoded, biased and masked augmented row is the sum of the
    contribution through the folded scale table and the contribution through the folded offset table. -/
theorem summand_real (X M B bwk : ℝ) (F : Fin 10 → ℝ) (W : Fin 11 → ℝ) :
    ((∑ f : Fin 11, augR X F B f * W f) + bwk) * M
      = (X * M) * (∑ f : Fin 10, F f * W (⟨f.val, Nat.lt_trans f.isLt (by decide)⟩ : Fin 11))
        + M * (B * W (10 : Fin 11) + bwk) := by
  rw [Fin.sum_univ_castSucc]
  have hlast : augR X F B (Fin.last 10) = B := by
    unfold augR
    rw [dif_neg]
    simp
  have hcast : ∀ f : Fin 10, augR X F B (Fin.castSucc f) = X * F f := by
    intro f
    unfold augR
    rw [dif_pos (by simp)]
    rfl
  have hW : ∀ f : Fin 10, W (⟨f.val, Nat.lt_trans f.isLt (by decide)⟩ : Fin 11) = W (Fin.castSucc f) := fun _ => rfl
  have h10 : W (10 : Fin 11) = W (Fin.last 10) := rfl
  simp only [hlast, hcast, hW, h10]
  have hs : ∑ f : Fin 10, X * F f * W (Fin.castSucc f) = X * ∑ f : Fin 10, F f * W (Fin.castSucc f) := by
    rw [Finset.mul_sum]
    exact Finset.sum_congr rfl fun f _ => by ring
  rw [hs]
  ring

/-- The whole identity in ℝ: summing the contributions over the features splits into the two sums. -/
theorem pooled_real (X M B : Fin 512 → ℝ) (bwk : ℝ) (F : Fin 512 → Fin 10 → ℝ) (W : Fin 11 → ℝ) :
    (∑ d : Fin 512, (X d * M d) * (∑ f : Fin 10, F d f * W (⟨f.val, Nat.lt_trans f.isLt (by decide)⟩ : Fin 11)))
        + (∑ d : Fin 512, M d * (B d * W (10 : Fin 11) + bwk))
      = ∑ d : Fin 512, ((∑ f : Fin 11, augR (X d) (F d) (B d) f * W f) + bwk) * M d := by
  rw [← Finset.sum_add_distrib]
  exact Finset.sum_congr rfl fun d _ => (summand_real (X d) (M d) (B d) bwk (F d) W).symm

/-- The two arrangements agree at every entry when all inputs are real. -/
theorem kerAt_eq_refAt (x msk : Obs) (Fm : Feat) (b : Off) (W : Wt) (bw : Bias)
    (hx : AllReal x) (hm : AllReal msk) (hF : AllReal Fm) (hb : AllReal b) (hW : AllReal W) (hbw : AllReal bw)
    (r : Fin 4096) (k : Fin 64) : kerAt x msk Fm b W bw r k = refAt x msk Fm b W bw r k := by
  choose xr hxr using hx
  choose mr hmr using hm
  choose Fr hFr using hF
  choose br hbr using hb
  choose Wr hWr using hW
  choose bwr hbwr using hbw
  -- the augmented row is the coercion of the real augmented row
  have haug : ∀ (d : Fin 512) (f : Fin 11), aug x Fm b r d f
      = ((augR (xr (ix2 r d)) (fun g => Fr (ix3 (0 : Fin 1) d g)) (br (ix3 (0 : Fin 1) d (0 : Fin 1))) f : ℝ) : EReal) := by
    intro d f
    unfold aug augR
    split_ifs with h
    · rw [hxr, hFr, EReal.coe_mul]
    · rw [hbr]
  -- the pool-then-encode argument is the coercion of a real number
  have hker : (∑ d : Fin 512, (x (ix2 r d) * msk (ix2 r d)) * fw Fm W d k)
        + (∑ d : Fin 512, msk (ix2 r d) * biasTab b W bw d k)
      = (((∑ d : Fin 512, (xr (ix2 r d) * mr (ix2 r d))
              * (∑ f : Fin 10, Fr (ix3 (0 : Fin 1) d f) * Wr (ix2 (⟨f.val, Nat.lt_trans f.isLt (by decide)⟩ : Fin 11) k)))
          + (∑ d : Fin 512, mr (ix2 r d) * (br (ix3 (0 : Fin 1) d (0 : Fin 1)) * Wr (ix2 (10 : Fin 11) k) + bwr (ix1 k))) : ℝ) : EReal) := by
    unfold fw biasTab
    simp only [hxr, hmr, hFr, hbr, hWr, hbwr]
    simp only [EReal.coe_add, EReal.coe_mul, coe_sum]
  -- the encode-then-pool argument is the coercion of a real number
  have href : (0 + ∑ d : Fin 512, ((∑ f : Fin 11, aug x Fm b r d f * W (ix2 f k)) + bw (ix1 k)) * msk (ix2 r d))
      = ((∑ d : Fin 512, ((∑ f : Fin 11,
            augR (xr (ix2 r d)) (fun g => Fr (ix3 (0 : Fin 1) d g)) (br (ix3 (0 : Fin 1) d (0 : Fin 1))) f * Wr (ix2 f k))
              + bwr (ix1 k)) * mr (ix2 r d) : ℝ) : EReal) := by
    rw [zero_add]
    simp only [haug, hmr, hWr, hbwr]
    simp only [EReal.coe_add, EReal.coe_mul, coe_sum]
  unfold kerAt refAt
  rw [hker, href]
  congr 2
  exact pooled_real (fun d => xr (ix2 r d)) (fun d => mr (ix2 r d)) (fun d => br (ix3 (0 : Fin 1) d (0 : Fin 1)))
    (bwr (ix1 k)) (fun d g => Fr (ix3 (0 : Fin 1) d g)) (fun f => Wr (ix2 f k))

/-- The two arrangements agree as whole arrays when all inputs are real. -/
theorem kerOut_eq_refOut (x msk : Obs) (Fm : Feat) (b : Off) (W : Wt) (bw : Bias)
    (hx : AllReal x) (hm : AllReal msk) (hF : AllReal Fm) (hb : AllReal b) (hW : AllReal W) (hbw : AllReal bw) :
    kerOut x msk Fm b W bw = refOut x msk Fm b W bw :=
  funext fun i => kerAt_eq_refAt x msk Fm b W bw hx hm hF hb hW hbw (i 0) (i 1)

end Cert.MaskedPool

end
-- ==== Proof.Finite.lean ====
/-
  The precondition makes every input entry a real number.

  The precondition compares, entry by entry, the absolute value |x| = max x (-x) of each input with +∞ (the word
  0x7F800000), takes the conjunction of these comparisons over each whole array, and conjoins the six results.
  When the outcome is "true", every comparison was "true": |x| < ⊤ for every entry x of every input. On the
  extended reals, |⊤| = ⊤ and |⊥| = max ⊥ ⊤ = ⊤, so neither infinity passes the comparison, and what remains
  is a real number.
-/
import proofs.«106250_j45861660786920_2_alg».proof.Proof.Spec
import proofs.«106250_j45861660786920_2_alg».proof.Proof.Gen.Pre_finite_inputs
import Idealize.ShloMosaic.Lib.ReduceAll

noncomputable section

namespace Cert.MaskedPool

open Idealize.ShloMosaic Idealize.ShloMosaic.ValueIdx

/-- The rank-0 shape has one index. -/
instance subsingleton_idx0 : Subsingleton (⟨0, ![]⟩ : Shape).Idx := ⟨fun a b => funext fun d => d.elim0⟩

/-- An extended real whose absolute value compares below +∞ is a real number. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ a : ℝ, x = (a : EReal) := by
  have htop : Ideal.ofBits .f32 0x7F800000#32 = (⊤ : EReal) := by simp [Ideal.ofBits, Ideal.ieee]
  rw [htop] at h
  induction x using EReal.rec with
  | bot => exact absurd h (by simp [FloatOps.cmpf, FloatOps.hostAbsf, Ideal.cmp])
  | coe a => exact ⟨a, rfl⟩
  | top => exact absurd h (by simp [FloatOps.cmpf, FloatOps.hostAbsf, Ideal.cmp])

/-- If the conjunction over a whole array of the comparisons |v i| < +∞ is "true", every entry of the array is real. -/
theorem allReal_of_reduce {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (v : FVec Ideal s .f32) (init : IVec (⟨0, ![]⟩ : Shape) 1)
    (e : Host.reduce IntOp.andi
          (cmpf .olt (Host.absf v) (broadcastInDim s ![] hb (constant (F := Ideal) (⟨0, ![]⟩ : Shape) .f32 0x7F800000#32)))
          init hr hu ix0 = 1#1) :
    AllReal v := by
  intro i
  have hi := Host.reduce_andi_all _ init hr hu ix0 e i
  exact real_of_abs_lt_top (v i) hi

theorem allReal_of_pre [Cert.Pre_finite_inputs.Facts] (a0 a1 : Obs) (a2 : Feat) (a3 : Off) (a4 : Wt) (a5 : Bias)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  have h0 := congrFun h ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_reduce _ _ _ a0 _ e0, allReal_of_reduce _ _ _ a1 _ e1, allReal_of_reduce _ _ _ a2 _ e2,
    allReal_of_reduce _ _ _ a3 _ e3, allReal_of_reduce _ _ _ a4 _ e4, allReal_of_reduce _ _ _ a5 _ e5⟩

end Cert.MaskedPool

end
-- ==== Proof.RefValue.lean ====
/-
  The reference program, read one entry at a time, is the encode-then-pool arrangement.

  Entry (r, k) of the program's result is
      max (0 + ∑ d, ((∑ f, row[r,d,f] · W[f,k]) + bw[k]) · mask[r,d], 0)
  where row[r,d,·] is the eleven-entry row obtained by joining the ten products x[r,d] · F[d,f] with the offset b[d].
  Every layout step (a broadcast, a reshape between [1,512,n] and [512,n], the join along the last axis) only moves
  entries, so reading the result at one index reduces to reading the inputs at coordinates computed from that index;
  the reshapes' coordinates are the quotient and remainder of d·n + f by n, which are d and f again.
-/
import proofs.«106250_j45861660786920_2_alg».proof.Proof.Gen.ReferenceIdeal.Read
import proofs.«106250_j45861660786920_2_alg».proof.Proof.Spec

noncomputable section

namespace Cert.ReferenceIdeal.RefValue

open Cert.ReferenceIdeal Cert.ReferenceIdeal.Gen Cert.ReferenceIdeal.Read Cert.MaskedPool
open Idealize.ShloMosaic Idealize.ShloMosaic.ValueIdx

/-- The product piece at (r, d, f) is x[r,d] · F[d,f]: both factors are broadcasts, the second through a reshape
    whose flat position d·10 + f has quotient d and remainder f. -/
theorem v5_at (x0 : Obs) (x2 : Feat) (r : Fin 4096) (d : Fin 512) (f : Fin 10) :
    val_main_v5 (F := Ideal) x0 x2 (ix3 r d f) = x0 (ix2 r d) * x2 (ix3 (0 : Fin 1) d f) := by
  rw [val_main_v5_apply, val_main_v3_apply, val_main_v0_apply, val_main_v4_apply, val_main_v2_apply,
    val_main_v1_apply]
  have e0 : idx_main_v0 (idx_main_v3 (ix3 r d f)) = ix2 r d :=
    funext fun a => Fin.ext (by match a with | ⟨0, _⟩ => rfl | ⟨1, _⟩ => rfl)
  have e1 : idx_main_v1 (idx_main_v2 (idx_main_v4 (ix3 r d f))) = ix3 (0 : Fin 1) d f :=
    funext fun a => Fin.ext (by
      have hd := d.isLt
      have hf := f.isLt
      match a with
      | ⟨0, _⟩ => rfl
      | ⟨1, _⟩ => show (d.val * 10 + f.val) / 10 % 512 = d.val; omega
      | ⟨2, _⟩ => show (d.val * 10 + f.val) % 10 = f.val; omega)
  rw [e0, e1]
  rfl

/-- The offset piece at (r, d, 0) is b[d]: a broadcast over the batch rows of a reshape that drops a unit axis. -/
theorem v7_at (x3 : Off) (r : Fin 4096) (d : Fin 512) :
    val_main_v7 (F := Ideal) x3 (ix3 r d (0 : Fin 1)) = x3 (ix3 (0 : Fin 1) d (0 : Fin 1)) := by
  rw [val_main_v7_apply, val_main_v6_apply]
  have e : idx_main_v6 (idx_main_v7 (ix3 r d (0 : Fin 1))) = ix3 (0 : Fin 1) d (0 : Fin 1) :=
    funext fun a => Fin.ext (by
      have hd := d.isLt
      match a with
      | ⟨0, _⟩ => rfl
      | ⟨1, _⟩ => show (d.val * 1 + 0) / 1 % 512 = d.val; omega
      | ⟨2, _⟩ => rfl)
  rw [e]

/-- The joined row at (r, d, f) is the augmented row: below 10 the coordinate falls in the product piece, at 10 it is
    the first (and only) position of the offset piece. -/
theorem v8_at (x0 : Obs) (x2 : Feat) (x3 : Off) (r : Fin 4096) (d : Fin 512) (f : Fin 11) :
    val_main_v8 (F := Ideal) x0 x2 x3 (ix3 r d f) = aug x0 x2 x3 r d f := by
  unfold aug val_main_v8
  by_cases h : f.val < 10
  · rw [dif_pos h]
    refine (concatenate_pair_apply_left (t := S4096x512x11) (s₁ := S4096x512x10) (s₂ := S4096x512x1) 2
      (val_main_v5 (F := Ideal) x0 x2) (val_main_v7 (F := Ideal) x3)
      concatenates_S4096x512x10_S4096x512x1_S4096x512x11_d2 (ix3 r d f) rfl (ix3 r d (⟨f.val, h⟩ : Fin 10))
      (fun b => by match b with | ⟨0, _⟩ => rfl | ⟨1, _⟩ => rfl | ⟨2, _⟩ => rfl)).trans ?_
    exact v5_at x0 x2 r d ⟨f.val, h⟩
  · rw [dif_neg h]
    have hf := f.isLt
    refine (concatenate_pair_apply_right (t := S4096x512x11) (s₁ := S4096x512x10) (s₂ := S4096x512x1) 2
      (val_main_v5 (F := Ideal) x0 x2) (val_main_v7 (F := Ideal) x3)
      concatenates_S4096x512x10_S4096x512x1_S4096x512x11_d2 (ix3 r d f) rfl rfl (ix3 r d (0 : Fin 1))
      (fun b hb => by
        match b, hb with
        | ⟨0, _⟩, _ => rfl
        | ⟨1, _⟩, _ => rfl
        | ⟨2, _⟩, hb => exact absurd rfl hb)
      (by show 0 + 10 = f.val; omega)).trans ?_
    exact v7_at x3 r d

/-- The encoded, biased and masked entry at (r, d, k). -/
theorem v15_at (x0 x1 : Obs) (x2 : Feat) (x3 : Off) (x4 : Wt) (x5 : Bias) (r : Fin 4096) (d : Fin 512) (k : Fin 64) :
    val_main_v15 (F := Ideal) x0 x1 x2 x3 x4 x5 (ix3 r d k)
      = ((∑ f : Fin 11, aug x0 x2 x3 r d f * x4 (ix2 f k)) + x5 (ix1 k)) * x1 (ix2 r d) := by
  rw [val_main_v15_apply, val_main_v12_apply, val_main_v9_apply, val_main_v11_apply, val_main_v10_apply,
    val_main_v14_apply, val_main_v13_apply]
  have eb : idx_main_v10 (idx_main_v11 (ix3 r d k)) = ix1 k :=
    funext fun a => Fin.ext (by match a with | ⟨0, _⟩ => rfl)
  have em : idx_main_v13 (idx_main_v14 (ix3 r d k)) = ix2 r d :=
    funext fun a => Fin.ext (by match a with | ⟨0, _⟩ => rfl | ⟨1, _⟩ => rfl)
  have es : (∑ f : Fin 11, val_main_v8 (F := Ideal) x0 x2 x3 (lidx_main_v9 (ix3 r d k) f) * x4 (ridx_main_v9 (ix3 r d k) f))
      = ∑ f : Fin 11, aug x0 x2 x3 r d f * x4 (ix2 f k) :=
    Finset.sum_congr rfl fun f _ => by
      have el : lidx_main_v9 (ix3 r d k) f = ix3 r d f :=
        funext fun a => Fin.ext (by match a with | ⟨0, _⟩ => rfl | ⟨1, _⟩ => rfl | ⟨2, _⟩ => rfl)
      have er : ridx_main_v9 (ix3 r d k) f = ix2 f k :=
        funext fun a => Fin.ext (by match a with | ⟨0, _⟩ => rfl | ⟨1, _⟩ => rfl)
      rw [el, er, v8_at]
  rw [eb, em, es]
  rfl

/-- The reference program's result is the encode-then-pool arrangement, as whole arrays. -/
theorem ref_eq (x0 x1 : Obs) (x2 : Feat) (x3 : Off) (x4 : Wt) (x5 : Bias) :
    val_main_v17 (F := Ideal) x0 x1 x2 x3 x4 x5 = refOut x0 x1 x2 x3 x4 x5 := by
  funext i
  obtain ⟨r, k, rfl⟩ : ∃ (r : Fin 4096) (k : Fin 64), i = ix2 r k := ⟨i 0, i 1, eq_ix2 i⟩
  have hz : FloatOps.ofBits (F := Ideal) .f32 0x00000000#32 = (0 : EReal) := Ideal.ofBits_zero_f32
  rw [val_main_v17_apply, val_main_v16_apply, val_main_call0_v0_apply, val_main_call0_cst_apply,
    val_main_cst_apply, hz]
  have es : (∑ d : Fin 512, val_main_v15 (F := Ideal) x0 x1 x2 x3 x4 x5 (idx_main_v16 (ix2 r k) d))
      = ∑ d : Fin 512, ((∑ f : Fin 11, aug x0 x2 x3 r d f * x4 (ix2 f k)) + x5 (ix1 k)) * x1 (ix2 r d) :=
    Finset.sum_congr rfl fun d _ => by
      have e : idx_main_v16 (ix2 r k) d = ix3 r d k :=
        funext fun a => Fin.ext (by match a with | ⟨0, _⟩ => rfl | ⟨1, _⟩ => rfl | ⟨2, _⟩ => rfl)
      rw [e, v15_at]
  rw [es]
  rfl

end Cert.ReferenceIdeal.RefValue

end
-- ==== Proof.KernelPayload.lean ====
/-
  The kernel body's arithmetic at one entry of its output block.

  The body loads a 2048×512 block `x` of observations, the matching block `mk` of the mask and the two 512×128
  tables `A`, `B` whole, and stores the 2048×128 block whose entry at row `p` and lane `q` is
      max ( ∑ over the 512 features d of (x[p,d] · mk[p,d]) · A[d,q]  +  ∑ d of mk[p,d] · B[d,q] ,  0 ).
  At the ideal values the narrowing of the products' operands to the short float format is the identity, a
  shape cast to the same shape is the identity, and a matrix product into a zero accumulator is the plain sum over
  the contracted axis of the operands' products.
-/
import proofs.«106250_j45861660786920_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The contracted coordinate of the left operand's index is the contraction index; its row is the output's row. -/
theorem lhs_row (j : S2048x128.Idx) (k : dot_S2048x512_S512x128_S2048x128_1_0_0_1_n_n.contr.Idx) :
    (dot_S2048x512_S512x128_S2048x128_1_0_0_1_n_n.lhsIdx j k 0).val = (j 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl

/-- The right operand's column is the output's column. -/
theorem rhs_col (j : S2048x128.Idx) (k : dot_S2048x512_S512x128_S2048x128_1_0_0_1_n_n.contr.Idx) :
    (dot_S2048x512_S512x128_S2048x128_1_0_0_1_n_n.rhsIdx j k 1).val = (j 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- A block product into the zero accumulator, at row `p` and lane `q`: the sum over the 512 features of the
    operands' products. -/
theorem product_apply {φ₁ φ₂ : FTy} (L : FVec Ideal S2048x512 φ₁) (R : FVec Ideal S512x128 φ₂) (p : Fin 2048) (q : Fin 128) :
    FloatOps.matmul dot_S2048x512_S512x128_S2048x128_1_0_0_1_n_n none L R (constant S2048x128 .f32 0x00000000#32) (ix2 p q)
      = ∑ d : Fin 512, L (ix2 p d) * R (ix2 d q) := by
  rw [Ideal.matmul_constant_zero_apply,
    ← Equiv.sum_comp (contrEquiv1 dot_S2048x512_S512x128_S2048x128_1_0_0_1_n_n 512 rfl rfl).symm]
  refine Finset.sum_congr rfl fun d _ => ?_
  have hd := contrEquiv1_symm_val dot_S2048x512_S512x128_S2048x128_1_0_0_1_n_n 512 rfl rfl d
  have el : dot_S2048x512_S512x128_S2048x128_1_0_0_1_n_n.lhsIdx (ix2 p q)
      ((contrEquiv1 dot_S2048x512_S512x128_S2048x128_1_0_0_1_n_n 512 rfl rfl).symm d) = ix2 p d :=
    funext fun a => Fin.ext (by
      match a with
      | ⟨0, _⟩ => exact lhs_row _ _
      | ⟨1, _⟩ => exact (dot_S2048x512_S512x128_S2048x128_1_0_0_1_n_n.lhsIdx_val_of_single rfl _ _).trans hd)
  have er : dot_S2048x512_S512x128_S2048x128_1_0_0_1_n_n.rhsIdx (ix2 p q)
      ((contrEquiv1 dot_S2048x512_S512x128_S2048x128_1_0_0_1_n_n 512 rfl rfl).symm d) = ix2 d q :=
    funext fun a => Fin.ext (by
      match a with
      | ⟨0, _⟩ => exact (dot_S2048x512_S512x128_S2048x128_1_0_0_1_n_n.rhsIdx_val_of_single rfl _ _).trans hd
      | ⟨1, _⟩ => exact rhs_col _ _)
  rw [el, er]

/-- The stored block at row `p` and lane `q`, from the four loaded blocks. -/
theorem payload_apply (x mk : Vec Ideal S2048x512 .f32) (A B : Vec Ideal S512x128 .f32) (p : Fin 2048) (q : Fin 128) :
    k0_pay1 (F := Ideal) x mk A B (ix2 p q)
      = max ((∑ d : Fin 512, (x (ix2 p d) * mk (ix2 p d)) * A (ix2 d q)) + (∑ d : Fin 512, mk (ix2 p d) * B (ix2 d q))) 0 := by
  unfold k0_pay1
  simp only [shapeCast_self]
  show max (FloatOps.matmul dot_S2048x512_S512x128_S2048x128_1_0_0_1_n_n none (truncf .bf16 (mulf x mk) bitsLt_bf16_f32)
        (truncf .bf16 A bitsLt_bf16_f32) (constant S2048x128 .f32 0x00000000#32) (ix2 p q)
      + FloatOps.matmul dot_S2048x512_S512x128_S2048x128_1_0_0_1_n_n none (truncf .bf16 mk bitsLt_bf16_f32)
        (truncf .bf16 B bitsLt_bf16_f32) (constant S2048x128 .f32 0x00000000#32) (ix2 p q))
      (Ideal.ofBits .f32 0x00000000#32) = _
  rw [product_apply, product_apply, Ideal.ofBits_zero_f32]
  rfl

end Cert.KernelIdeal.Body

end
-- ==== Proof.KernelBlocks.lean ====
/-
  From the blocks the grid's points write back to the whole 4096×128 array.

  The grid has two points; point `t` reads rows `2048·t … 2048·t + 2047` of the observations and of the mask, reads
  both 512×128 tables whole, and writes back rows `2048·t …` of the result, all 128 lanes. So what point `t` writes is
  the block at row offset `2048·t` of ONE function of the arrays as the launch finds them,
      pooled[r,q] = max ( ∑ d, (X[r,d] · Mk[r,d]) · A[d,q] + ∑ d, Mk[r,d] · B[d,q] ,  0 ),
  and the two blocks tile the array (row `r` lies in the block of point `r / 2048`), so the array ends at `pooled`.
-/
import proofs.«106250_j45861660786920_2_alg».proof.Proof.Gen.KernelIdeal.Frame
import proofs.«106250_j45861660786920_2_alg».proof.Proof.KernelPayload
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat Cfg Window)

/-- The result before the lanes are cut back: row `r`, lane `q`. -/
def pooled (X Mk : FVec Ideal S4096x512 .f32) (A B : FVec Ideal S512x128 .f32) : FVec Ideal S4096x128 .f32 := fun i =>
  max ((∑ d : Fin 512, (X (ix2 (i 0) d) * Mk (ix2 (i 0) d)) * A (ix2 d (i 1)))
    + (∑ d : Fin 512, Mk (ix2 (i 0) d) * B (ix2 d (i 1)))) 0

/-- One entry of a stored block, when the loaded blocks are the arrays read at row `r` (for the batch blocks) and
    whole (for the tables). -/
theorem block_entry (X Mk : FVec Ideal S4096x512 .f32) (A B : FVec Ideal S512x128 .f32)
    (x mk : Vec Ideal S2048x512 .f32) (a b : Vec Ideal S512x128 .f32)
    (r : Fin 4096) (p : Fin 2048) (q : Fin 128)
    (hx : ∀ d : Fin 512, x (ix2 p d) = X (ix2 r d)) (hmk : ∀ d : Fin 512, mk (ix2 p d) = Mk (ix2 r d))
    (ha : ∀ d : Fin 512, a (ix2 d q) = A (ix2 d q)) (hb : ∀ d : Fin 512, b (ix2 d q) = B (ix2 d q)) :
    k0_pay1 (F := Ideal) x mk a b (ix2 p q) = pooled X Mk A B (ix2 r q) := by
  rw [payload_apply]
  unfold pooled
  simp only [hx, hmk, ha, hb]

theorem hz : (![0, 0] : Fin 2 → Nat) = fun _ => 0 := funext fun a => by fin_cases a <;> rfl

/-- The printed index maps over the grid: the batch windows move with the output's rows, the tables stay put. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 1 :=
  (by decide +kernel : ∀ t : Fin grid0.N, _)

/-- Each of the two row blocks is some point's. -/
theorem idx_onto : ∀ q0 : Fin 2, ∃ t : Fin cfg0.N, win0_4.index t = ![q0.val, 0] :=
  (by decide +kernel : ∀ q0 : Fin 2, ∃ t : Fin grid0.N, win0_4.index t = ![q0.val, 0])

variable (m : (ℓ : Loc nD τ sig) → Buf (Elt Ideal) ℓ)

/-- What point `t` writes back is block `t` of `pooled` of the arrays as the region finds them. -/
theorem flushed_eq (c : Dev nD) (t : Fin cfg0.N) :
    (dats m 0 c).flushed 4 t = ((cfg0.win 4).blk t).view.read (Elt Ideal)
      (pooled (V m c main_arg0) (V m c main_arg1) (V m c main_v11) (V m c main_v12)) := by
  show (cfg0.win 4).cut (grid0.coords t) ((dats m 0 c).after 4 t) = _
  rw [after0_4]
  unfold out0_4
  rw [View.canon_unit_zero hz]
  simp only [View.ld_unit_zero (S := S2048x512) hz, View.ld_unit_zero (S := S512x128) hz]
  obtain ⟨e0, e1, e2, e3, e4, e5, e6, e7, e8, e9⟩ := idx_facts t
  funext j
  obtain ⟨p, q, rfl⟩ : ∃ (p : Fin 2048) (q : Fin 128), j = ix2 p q := ⟨j 0, j 1, eq_ix2 j⟩
  have hr : win0_4.index t (0 : Fin 2) * 2048 + p.val < 4096 := by have := p.isLt; omega
  refine (block_entry (V m c main_arg0) (V m c main_arg1) (V m c main_v11) (V m c main_v12)
    (iblk m c 0 t) (iblk m c 1 t) (iblk m c 2 t) (iblk m c 3 t)
    (⟨win0_4.index t (0 : Fin 2) * 2048 + p.val, hr⟩ : Fin 4096) p q ?_ ?_ ?_ ?_).trans ?_
  · intro d
    show V m c main_arg0 (((cfg0.win 0).blk t).view.emb (ix2 p d)) = _
    refine congrArg (V m c main_arg0) (funext fun a => Fin.ext ?_)
    match a with
    | ⟨0, _⟩ => show win0_0.index t (0 : Fin 2) * 2048 + 1 * p.val = win0_4.index t (0 : Fin 2) * 2048 + p.val; omega
    | ⟨1, _⟩ => show win0_0.index t (1 : Fin 2) * 512 + 1 * d.val = d.val; omega
  · intro d
    show V m c main_arg1 (((cfg0.win 1).blk t).view.emb (ix2 p d)) = _
    refine congrArg (V m c main_arg1) (funext fun a => Fin.ext ?_)
    match a with
    | ⟨0, _⟩ => show win0_1.index t (0 : Fin 2) * 2048 + 1 * p.val = win0_4.index t (0 : Fin 2) * 2048 + p.val; omega
    | ⟨1, _⟩ => show win0_1.index t (1 : Fin 2) * 512 + 1 * d.val = d.val; omega
  · intro d
    show V m c main_v11 (((cfg0.win 2).blk t).view.emb (ix2 d q)) = _
    refine congrArg (V m c main_v11) (funext fun a => Fin.ext ?_)
    match a with
    | ⟨0, _⟩ => show win0_2.index t (0 : Fin 2) * 512 + 1 * d.val = d.val; omega
    | ⟨1, _⟩ => show win0_2.index t (1 : Fin 2) * 128 + 1 * q.val = q.val; omega
  · intro d
    show V m c main_v12 (((cfg0.win 3).blk t).view.emb (ix2 d q)) = _
    refine congrArg (V m c main_v12) (funext fun a => Fin.ext ?_)
    match a with
    | ⟨0, _⟩ => show win0_3.index t (0 : Fin 2) * 512 + 1 * d.val = d.val; omega
    | ⟨1, _⟩ => show win0_3.index t (1 : Fin 2) * 128 + 1 * q.val = q.val; omega
  · show pooled (V m c main_arg0) (V m c main_arg1) (V m c main_v11) (V m c main_v12) _
      = pooled (V m c main_arg0) (V m c main_arg1) (V m c main_v11) (V m c main_v12) (((cfg0.win 4).blk t).view.emb (ix2 p q))
    refine congrArg (pooled (V m c main_arg0) (V m c main_arg1) (V m c main_v11) (V m c main_v12)) (funext fun a => Fin.ext ?_)
    match a with
    | ⟨0, _⟩ => show win0_4.index t (0 : Fin 2) * 2048 + p.val = win0_4.index t (0 : Fin 2) * 2048 + 1 * p.val; omega
    | ⟨1, _⟩ => show q.val = win0_4.index t (1 : Fin 2) * 128 + 1 * q.val; omega

/-- An index of the array is in point `t`'s block iff each coordinate is in the block's range on its axis. -/
theorem mem_blk (t : Fin cfg0.N) (i : S4096x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v13).slice (win0_4.rect t)).set ↔ _
  rw [View.set_slice_whole, Rect.mem_set_unit]
  exact Iff.rfl

/-- Every entry of the array lies in the block of the point its row names. -/
theorem cover (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 128 ≤ (i 1).val ∧ (i 1).val < win0_4.index t (1 : Fin 2) * 128 + 128; omega

/-- The output array after the run. -/
theorem final (c : Dev nD) :
    (dats m 0 c).arrAt 4 cfg0.N = pooled (V m c main_arg0) (V m c main_arg1) (V m c main_v11) (V m c main_v12) :=
  (dats m 0 c).arrAt_eq_of_cover 4 _ (fun t _ => flushed_eq m c t) cover

end Cert.KernelIdeal.Blocks

end
-- ==== Proof.KernelTables.lean ====
/-
  The two tables the kernel's products run against, as the host prepares them before the launch.

  The scale table is the product of the 512×10 feature scales with the first ten rows of the encoding matrix,
  `fw[d,k] = ∑ f < 10, F[d,f] · W[f,k]`; the offset table is `bias[d,k] = b[d] · W[10,k] + bw[k]`. Each is 512×64 and
  is widened to 128 lanes by zeros on the right (the padding value is the integer zero converted to a float). So at
  feature `d` and lane `q` a padded table holds the table's entry when `q < 64` and zero otherwise.
-/
import proofs.«106250_j45861660786920_2_alg».proof.Proof.Gen.KernelIdeal.Frame
import proofs.«106250_j45861660786920_2_alg».proof.Proof.Spec
import Idealize.ShloMosaic.Lib.StableHlo.Run
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.KernelIdeal.Tables

open Cert.KernelIdeal Cert.KernelIdeal.Gen Cert.MaskedPool
open Idealize.ShloMosaic Idealize.ShloMosaic.TcCoe Idealize.SL.Sem Idealize.ShloMosaic.StableHlo Idealize.ShloMosaic.ValueIdx

/-! ## The host's terms -/

/-- The padding value: the integer zero converted. -/
def padZero : FVec Ideal S_ .f32 := sitofp (F := Ideal) .f32 (constantI S_ 32 0#32)

/-- The unpadded scale table. -/
def fwHost (a2 : FVec Ideal S1x512x10 .f32) (a4 : FVec Ideal S11x64 .f32) : FVec Ideal S512x64 .f32 :=
  Host.dotGeneral (F := Ideal) dot_S512x10_S10x64_S512x64_1_0_0_1_n_n none
    (shapeCast S512x10 a2 shapeCasts_S1x512x10_S512x10)
    (extractStridedSlice S10x64 ![0, 0] a4 slices_S11x64_S10x64_0_0)

/-- The unpadded offset table. -/
def biasHost (a3 : FVec Ideal S1x512x1 .f32) (a4 : FVec Ideal S11x64 .f32) (a5 : FVec Ideal S64 .f32) : FVec Ideal S512x64 .f32 :=
  addf (mulf (broadcastInDim S512x64 ![0, 1] bcast_S512x1_S512x64_0_1 (shapeCast S512x1 a3 shapeCasts_S1x512x1_S512x1))
      (broadcastInDim S512x64 ![0, 1] bcast_S1x64_S512x64_0_1 (extractStridedSlice S1x64 ![10, 0] a4 slices_S11x64_S1x64_10_0)))
    (broadcastInDim S512x64 ![0, 1] bcast_S1x64_S512x64_0_1 (broadcastInDim S1x64 ![1] bcast_S64_S1x64_1 a5))

/-- A 512×64 table widened to 128 lanes by the padding value. -/
def widen (T : FVec Ideal S512x64 .f32) : FVec Ideal S512x128 .f32 :=
  pad S512x128 ![0, 0] ![0, 64] ![0, 0] T padZero pads_S512x64_S512x128_000_0640 h_S_

/-! ## Read at an index -/

/-- A widened table at lane `q < 64` is the table. -/
theorem widen_apply_lt (T : FVec Ideal S512x64 .f32) (d : Fin 512) (q : Fin 128) (h : q.val < 64) :
    widen T (ix2 d q) = T (ix2 d (⟨q.val, h⟩ : Fin 64)) := by
  unfold widen
  exact pad_apply_of_inside _ _ _ T padZero pads_S512x64_S512x128_000_0640 h_S_ (ix2 d q) (ix2 d (⟨q.val, h⟩ : Fin 64))
    (fun a => by
      match a with
      | ⟨0, _⟩ => show d.val = 0 + d.val * (0 + 1); omega
      | ⟨1, _⟩ => show q.val = 0 + q.val * (0 + 1); omega)

/-- A widened table at a lane `q ≥ 64` is zero. -/
theorem widen_apply_ge (T : FVec Ideal S512x64 .f32) (d : Fin 512) (q : Fin 128) (h : ¬ q.val < 64) :
    widen T (ix2 d q) = 0 := by
  unfold widen
  rw [pad_apply_of_not_inside _ _ _ T padZero pads_S512x64_S512x128_000_0640 h_S_ (ix2 d q) (1 : Fin 2)
    (by
      show ¬(0 ≤ q.val ∧ (q.val - 0) % (0 + 1) = 0 ∧ (q.val - 0) / (0 + 1) < 64)
      omega)]
  exact sitofp_zero

theorem lhs_row (j : S512x64.Idx) (k : dot_S512x10_S10x64_S512x64_1_0_0_1_n_n.contr.Idx) :
    (dot_S512x10_S10x64_S512x64_1_0_0_1_n_n.lhsIdx j k 0).val = (j 0).val := by
  unfold DotDims.lhsIdx
  rw [dif_neg (show ¬(0 : Fin S512x10.rank) ∈ dot_S512x10_S10x64_S512x64_1_0_0_1_n_n.lhsBatch by decide),
    dif_pos (show (0 : Fin S512x10.rank) ∈ dot_S512x10_S10x64_S512x64_1_0_0_1_n_n.lhsNonContracting by decide)]
  rfl

theorem rhs_col (j : S512x64.Idx) (k : dot_S512x10_S10x64_S512x64_1_0_0_1_n_n.contr.Idx) :
    (dot_S512x10_S10x64_S512x64_1_0_0_1_n_n.rhsIdx j k 1).val = (j 1).val := by
  unfold DotDims.rhsIdx
  rw [dif_neg (show ¬(1 : Fin S10x64.rank) ∈ dot_S512x10_S10x64_S512x64_1_0_0_1_n_n.rhsBatch by decide),
    dif_pos (show (1 : Fin S10x64.rank) ∈ dot_S512x10_S10x64_S512x64_1_0_0_1_n_n.rhsNonContracting by decide)]
  rfl

/-- The host's scale table is `fw`. -/
theorem fwHost_apply (a2 : Feat) (a4 : Wt) (d : Fin 512) (k : Fin 64) :
    fwHost a2 a4 (ix2 d k) = fw a2 a4 d k := by
  unfold fwHost fw
  simp only [Host.dotGeneral]
  rw [Ideal.dotGeneral_apply, ← Equiv.sum_comp (contrEquiv1 dot_S512x10_S10x64_S512x64_1_0_0_1_n_n 10 rfl rfl).symm]
  refine Finset.sum_congr rfl fun f _ => ?_
  have hf := contrEquiv1_symm_val dot_S512x10_S10x64_S512x64_1_0_0_1_n_n 10 rfl rfl f
  have el : dot_S512x10_S10x64_S512x64_1_0_0_1_n_n.lhsIdx (ix2 d k)
      ((contrEquiv1 dot_S512x10_S10x64_S512x64_1_0_0_1_n_n 10 rfl rfl).symm f) = ix2 d f :=
    funext fun a => Fin.ext (by
      match a with
      | ⟨0, _⟩ => exact lhs_row _ _
      | ⟨1, _⟩ => exact (dot_S512x10_S10x64_S512x64_1_0_0_1_n_n.lhsIdx_val_of_single rfl _ _).trans hf)
  have er : dot_S512x10_S10x64_S512x64_1_0_0_1_n_n.rhsIdx (ix2 d k)
      ((contrEquiv1 dot_S512x10_S10x64_S512x64_1_0_0_1_n_n 10 rfl rfl).symm f) = ix2 f k :=
    funext fun a => Fin.ext (by
      match a with
      | ⟨0, _⟩ => exact (dot_S512x10_S10x64_S512x64_1_0_0_1_n_n.rhsIdx_val_of_single rfl _ _).trans hf
      | ⟨1, _⟩ => exact rhs_col _ _)
  rw [el, er, shapeCast_1ab_ab_apply,
    slice2_axis0_apply 0 a4 slices_S11x64_S10x64_0_0 f k (⟨f.val, Nat.lt_trans f.isLt (by decide)⟩ : Fin 11) (by simp)]

/-- The host's offset table is `biasTab`. -/
theorem biasHost_apply (a3 : Off) (a4 : Wt) (a5 : Bias) (d : Fin 512) (k : Fin 64) :
    biasHost a3 a4 a5 (ix2 d k) = biasTab a3 a4 a5 d k := by
  unfold biasHost biasTab
  rw [addf_apply, mulf_apply]
  rw [broadcastInDim_apply _ bcast_S512x1_S512x64_0_1 _ (ix2 d k) (ix2 d (0 : Fin 1)) (fun a => by
      match a with
      | ⟨0, _⟩ => show d.val = if (512 : Nat) = 1 then 0 else d.val; rw [if_neg (by decide)]
      | ⟨1, _⟩ => show 0 = if (1 : Nat) = 1 then 0 else k.val; rw [if_pos rfl]),
    broadcastInDim_apply _ bcast_S1x64_S512x64_0_1 (extractStridedSlice S1x64 ![10, 0] a4 slices_S11x64_S1x64_10_0) (ix2 d k) (ix2 (0 : Fin 1) k) (fun a => by
      match a with
      | ⟨0, _⟩ => show 0 = if (1 : Nat) = 1 then 0 else d.val; rw [if_pos rfl]
      | ⟨1, _⟩ => show k.val = if (64 : Nat) = 1 then 0 else k.val; rw [if_neg (by decide)]),
    broadcastInDim_apply _ bcast_S1x64_S512x64_0_1 (broadcastInDim S1x64 ![1] bcast_S64_S1x64_1 a5) (ix2 d k) (ix2 (0 : Fin 1) k) (fun a => by
      match a with
      | ⟨0, _⟩ => show 0 = if (1 : Nat) = 1 then 0 else d.val; rw [if_pos rfl]
      | ⟨1, _⟩ => show k.val = if (64 : Nat) = 1 then 0 else k.val; rw [if_neg (by decide)]),
    broadcastInDim_apply _ bcast_S64_S1x64_1 a5 (ix2 (0 : Fin 1) k) (ix1 k) (fun a => by
      match a with
      | ⟨0, _⟩ => show k.val = if (64 : Nat) = 1 then 0 else k.val; rw [if_neg (by decide)]),
    shapeCast_1ab_ab_apply,
    slice2_axis0_apply 10 a4 slices_S11x64_S1x64_10_0 (0 : Fin 1) k (10 : Fin 11) (by decide)]

/-! ## What the region finds -/

variable (m : (ℓ : Loc nD τ sig) → Buf (Elt Ideal) ℓ)

/-- Window 2's array when the region is entered: the widened scale table of the launch arguments. -/
theorem V_scale (c : Dev nD) :
    V m c main_v11 = widen (fwHost (m ((c : Thread nD τ).loc main_arg2)) (m ((c : Thread nD τ).loc main_arg4))) := by
  dsimp only [V, V0]
  simp only [hostOps0, hostOps0_1, hostOps0_2, hostOps0_3, List.flatten_cons, List.flatten_nil, List.append_nil, List.cons_append, List.nil_append]
  after_results
  rfl

/-- Window 3's array when the region is entered: the widened offset table of the launch arguments. -/
theorem V_offset (c : Dev nD) :
    V m c main_v12 = widen (biasHost (m ((c : Thread nD τ).loc main_arg3)) (m ((c : Thread nD τ).loc main_arg4)) (m ((c : Thread nD τ).loc main_arg5))) := by
  dsimp only [V, V0]
  simp only [hostOps0, hostOps0_1, hostOps0_2, hostOps0_3, List.flatten_cons, List.flatten_nil, List.append_nil, List.cons_append, List.nil_append]
  after_results
  rfl

end Cert.KernelIdeal.Tables

end
-- ==== Proof.KernelRun.lean ====
/-
  The idealized kernel's whole run, with its result named.

  After the launch the host cuts the 4096×128 array back to its first 64 lanes. At row `r` and channel `k < 64` the
  array holds `max (∑ d, (x[r,d]·mask[r,d]) · A[d,k] + ∑ d, mask[r,d] · B[d,k], 0)` with `A`, `B` the widened tables, which at
  a lane below 64 are the folded scale table and the folded offset table; so the result is the pool-then-encode
  arrangement of the launch arguments, and the arguments themselves are left as they were.
-/
import proofs.«106250_j45861660786920_2_alg».proof.Proof.KernelBlocks
import proofs.«106250_j45861660786920_2_alg».proof.Proof.KernelTables
import proofs.«106250_j45861660786920_2_alg».proof.Proof.Spec
import Idealize.ShloMosaic.Lib.StableHlo.Run
import Idealize.ShloMosaic.Lib.ValueLayout

set_option maxRecDepth 16384

noncomputable section

namespace Cert.KernelIdeal.Run

open Cert.KernelIdeal Cert.KernelIdeal.Gen Cert.KernelIdeal.Blocks Cert.KernelIdeal.Tables Cert.MaskedPool
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The lane cut of the pooled array over the widened tables is the pool-then-encode arrangement. -/
theorem cut_pooled (a0 a1 : Obs) (a2 : Feat) (a3 : Off) (a4 : Wt) (a5 : Bias) :
    extractStridedSlice S4096x64 ![0, 0] (pooled a0 a1 (widen (fwHost a2 a4)) (widen (biasHost a3 a4 a5))) slices_S4096x128_S4096x64_0_0
      = kerOut a0 a1 a2 a3 a4 a5 := by
  funext i
  obtain ⟨r, k, rfl⟩ : ∃ (r : Fin 4096) (k : Fin 64), i = ix2 r k := ⟨i 0, i 1, eq_ix2 i⟩
  have hk : (⟨k.val, Nat.lt_trans k.isLt (by decide)⟩ : Fin 128).val < 64 := k.isLt
  rw [slice2_axis1_apply 0 _ slices_S4096x128_S4096x64_0_0 r k (⟨k.val, Nat.lt_trans k.isLt (by decide)⟩ : Fin 128) (by simp)]
  unfold pooled kerOut kerAt
  simp only [widen_apply_lt _ _ _ hk, fwHost_apply, biasHost_apply]

/-- The result buffer after the host's tail: the lane cut of the array the launch left. -/
theorem tail_eq (c : Dev nD) :
    Pipeline.afterTail₀ cfgs (dats m) 0 (V0 m) [hostOps1] c main_v14
      = extractStridedSlice S4096x64 ![0, 0] (pooled (V m c main_arg0) (V m c main_arg1) (V m c main_v11) (V m c main_v12)) slices_S4096x128_S4096x64_0_0 := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v13)
      = pooled (V m c main_arg0) (V m c main_arg1) (V m c main_v11) (V m c main_v12) :=
    (Pipeline.withArrays_arr spec0 launch0.win.arr_inj c _ _ 4).trans (final m c)
  rw [e]

/-- The same in terms of the launch arguments. -/
theorem result_eq (c : Dev nD) :
    Pipeline.afterTail₀ cfgs (dats m) 0 (V0 m) [hostOps1] c main_v14
      = kerOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [tail_eq, V_main_arg0, V_main_arg1, V_scale, V_offset]
  exact cut_pooled _ _ _ _ _ _

/-- Every weakly fair execution of the idealized kernel terminates with its result at the pool-then-encode
    arrangement of the launch arguments and the arguments unchanged. -/
theorem run : θ_run defs (onTc (τ := τ) (main (F := Ideal))) ⟨m, fun _ => 0, ρ⟩ (fun r => ∀ c : Dev nD,
      r.2.mem ((c.tc : Thread nD τ).loc main_v14)
        = kerOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Run

end
-- ==== Proof.lean ====
/-
  The masked pooling of an affine feature encoding: a kernel that pools first and encodes once, against a reference
  that encodes every feature and pools afterwards.

  Inputs: observations `x` and a mask `mk` (4096 batch rows × 512 features), per-feature scale vectors `F` (512 × 10),
  per-feature offsets `b` (512), an encoding matrix `W` (11 × 64) and a channel bias `bw` (64). For batch row `r` and
  channel `k` the reference forms, for every feature `d`, the 11-entry row (x[r,d]·F[d,·], b[d]), encodes it with `W`, adds
  `bw[k]`, multiplies by `mk[r,d]`, sums over `d` from zero and takes the maximum with zero. The kernel folds the encoding
  into two 512 × 64 tables on the host, `fw[d,k] = ∑ f < 10, F[d,f]·W[f,k]` and `bias[d,k] = b[d]·W[10,k] + bw[k]`, widens
  them to 128 lanes with zeros, and on a grid of two row blocks computes
  `max ((x ∘ mk) · fw + mk · bias, 0)` by two matrix products into zero accumulators; the host then cuts the lanes
  back to 64.

  At the ideal values (entries extended reals, every operation exact, a change of float format the identity) both
  programs are finite sums of products of the inputs, and the two arrangements differ by distributivity and an
  exchange of the order of summation. Distributivity fails at the infinities, so the precondition is used: every
  input entry compares below +∞ in absolute value, hence is a real number, and the identity is the one in ℝ.

  The modules: `Spec` states the two arrangements entry by entry; `Algebra` proves them equal on real entries;
  `Finite` reads the precondition; `RefValue` reads the reference program's run one entry at a time; `KernelPayload`,
  `KernelTables`, `KernelBlocks` and `KernelRun` read the kernel: the body's arithmetic at an entry of a block, the
  tables the host prepares, the two blocks as the whole array, and the host's final cut. The three frames are the
  generated runs; the idealized kernel is the kernel's own text read at the ideal values, with no operation rewritten,
  so the idealization conjunct is `True`.
-/
import proofs.«106250_j45861660786920_2_alg».proof.Defs
import proofs.«106250_j45861660786920_2_alg».proof.Proof.Gen.Kernel
import proofs.«106250_j45861660786920_2_alg».proof.Proof.Gen.Kernel.Skeleton
import proofs.«106250_j45861660786920_2_alg».proof.Proof.Gen.Kernel.Launch
import proofs.«106250_j45861660786920_2_alg».proof.Proof.Gen.Kernel.Points
import proofs.«106250_j45861660786920_2_alg».proof.Proof.Gen.Kernel.Frame
import proofs.«106250_j45861660786920_2_alg».proof.Proof.Gen.KernelIdeal
import proofs.«106250_j45861660786920_2_alg».proof.Proof.Gen.KernelIdeal.Skeleton
import proofs.«106250_j45861660786920_2_alg».proof.Proof.Gen.KernelIdeal.Launch
import proofs.«106250_j45861660786920_2_alg».proof.Proof.Gen.KernelIdeal.Points
import proofs.«106250_j45861660786920_2_alg».proof.Proof.Gen.KernelIdeal.Frame
import proofs.«106250_j45861660786920_2_alg».proof.Proof.Gen.ReferenceIdeal
import proofs.«106250_j45861660786920_2_alg».proof.Proof.Gen.Pre_finite_inputs
import proofs.«106250_j45861660786920_2_alg».proof.Proof.Gen.ReferenceIdeal.Run
import proofs.«106250_j45861660786920_2_alg».proof.Proof.Gen.ReferenceIdeal.Read
import proofs.«106250_j45861660786920_2_alg».proof.Proof.Spec
import proofs.«106250_j45861660786920_2_alg».proof.Proof.Algebra
import proofs.«106250_j45861660786920_2_alg».proof.Proof.Finite
import proofs.«106250_j45861660786920_2_alg».proof.Proof.RefValue
import proofs.«106250_j45861660786920_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten in its idealization. -/
theorem preserves : Cert.preserves_Kernel_KernelIdeal := trivial

/-- At the ideal values the kernel ends at the pool-then-encode arrangement of its arguments and the reference at the
    encode-then-pool arrangement of arguments that agree with them; the precondition makes every entry real, and on
    real entries the two arrangements are one function. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono
    (fun _ h c => ⟨(h c).1.trans ((Cert.ReferenceIdeal.Read.val_main_v17_eq (F := Ideal) _ _ _ _ _ _).trans ?_), (h c).2⟩)
    (Cert.ReferenceIdeal.Value.run (F := Ideal) m' ρ')
  obtain ⟨e0, e1, e2, e3, e4, e5⟩ := hagree c
  obtain ⟨h0, h1, h2, h3, h4, h5⟩ := Cert.MaskedPool.allReal_of_pre _ _ _ _ _ _ (hpre c)
  rw [Cert.ReferenceIdeal.RefValue.ref_eq, e0, e1, e2, e3, e4, e5]
  exact (Cert.MaskedPool.kerOut_eq_refOut _ _ _ _ _ _ h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
